-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x32 .f32) (main_arg3 : FVec F S32 .f32) (main_arg4 : FVec F S32x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S4000x512 : Shape := ⟨2, ![4000, 512]⟩
abbrev S4000x32 : Shape := ⟨2, ![4000, 32]⟩
abbrev S1700000x32 : Shape := ⟨2, ![1700000, 32]⟩
abbrev S1x32 : Shape := ⟨2, ![1, 32]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 107
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x16, .f32⟩
  | .hbm, ⟨82, _⟩ => ⟨S1700000x1, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x16, .f32⟩
  | .local _ .vmem, ⟨8, _⟩ => ⟨S4000x16, .f32⟩
  | .local _ .vmem, ⟨9, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x32_S4000x32_1_0_0_1_n_n_wf : DotDims.WF S4000x512 S512x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x16_S4000x16_1_0_0_1_n_n_wf : DotDims.WF S4000x32 S32x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x16, .f32⟩
  | .hbm, ⟨82, _⟩ => ⟨S1700000x1, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x32_S100000x32_1_0_0_1_n_n_wf : DotDims.WF S100000x512 S512x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's whole run, with every buffer named at the end.

  @main is nine segments: three stretches of host operations (the graph normalisation: rows, columns and the edge
  weights deg^{-1/2}[row]·deg^{-1/2}[col]), the first matrix product x·W1 as a pipelined region, two stretches (gather by
  row, scale by the weight, scatter-add by column, add b1, relu), the second product h·W2 as a region, and two stretches
  (the same message passing, add b2, log-softmax). The generated frame follows the device's buffers through these nine
  segments as a fold `W0 … W9` of valuations; here the run is stated with ALL of it kept: every unscoped buffer ends at its
  contents in `W9`. The frame claim keeps only the six arguments of that; the value claim needs the result buffer too.
-/
import proofs.«104740_j17300128268933_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with EVERY unscoped buffer of every core at the
    last boundary's contents `W9`: the nine segments chained from the launch memory, the last thread state read against
    the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run, read at the result buffer and at the six arguments: the result holds what the fold `W9` has there,
    the arguments what was launched (no segment writes an argument). -/
theorem run_value : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_all m ρ)

end Cert.KernelIdeal.Whole

end
-- ==== Proof.Stages.lean ====
/-
  The host side of the two-layer graph convolution, as functions of arrays.

  Around its two matrix products the program is plain array code, the same in the kernel's @main and in the
  reference's: from the edge list it makes the source and target node of every edge with a self loop appended per node
  (`rowOf`, `colOf`), the in-degree with self loops, its inverse square root where positive, and per edge the
  symmetric weight deg^{-1/2}[row] · deg^{-1/2}[col] (`edgeWeight`); a layer gathers the transformed features by source
  node, scales them by the edge weight, sums them into the target nodes and adds the bias (`messages32`, `messages16`);
  the first layer ends in relu (`hidden`), the second in log-softmax along the class axis (`logSoftmax`).
  Each is spelt as the operations are printed, so that what a stretch of host operations leaves in a buffer IS one of
  these functions of what it found — nothing here is computed, the functions are only named.
-/
import proofs.«104740_j17300128268933_1_alg».proof.KernelIdeal

noncomputable section

namespace Cert.KernelIdeal.Stages

open Idealize.ShloMosaic Cert.KernelIdeal
open Cert.KernelIdeal.Facts₀ Cert.KernelIdeal.Facts

variable {F : FTy → Type} [FloatOps F] [Cert.KernelIdeal.Facts]

/-- Source node of every edge, then node `n` for the self loop of node `n`: row 0 of the edge list followed by 0 … N-1. -/
def rowOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Target node of every edge, then the self loops: row 1 of the edge list followed by 0 … N-1. -/
def colOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index array as a gather takes it: a negative index counts from the end (N is added), and the list becomes a
    column of one-element index vectors. -/
def asIndex (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- In-degree with self loops: a one summed into its target node for every edge. -/
def degree (col : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- deg^{-1/2} where the degree is positive, 0 elsewhere (the root is taken of max(deg, 1)). -/
def invSqrtDegree (col : IVec S1700000 32) : FVec F S100000 .f32 :=
  select (cmpf .ogt (degree (F := F) col) (broadcastInDim S100000 ![] bcast_S_S100000 (constant S_ .f32 0x00000000#32)))
    (Host.rsqrt (maximumf (degree (F := F) col) (broadcastInDim S100000 ![] bcast_S_S100000 (constant S_ .f32 0x3F800000#32))))
    (broadcastInDim S100000 ![] bcast_S_S100000 (constant S_ .f32 0x00000000#32))

/-- The symmetric normalisation of an edge: deg^{-1/2} at its source times deg^{-1/2} at its target. -/
def edgeWeight (row col : IVec S1700000 32) : FVec F S1700000 .f32 :=
  mulf (Host.gather gather_S100000_S1700000x1_S1700000_n_0_n_n_0_1_1 (invSqrtDegree (F := F) col) (asIndex row))
    (Host.gather gather_S100000_S1700000x1_S1700000_n_0_n_n_0_1_1 (invSqrtDegree (F := F) col) (asIndex col))

/-- One round of message passing over 32 features: the features of each edge's source, scaled by the edge's weight,
    summed into its target; plus the bias along the feature axis. -/
def messages32 (row col : IVec S1700000 32) (wt : FVec F S1700000 .f32) (h : FVec F S100000x32 .f32) (b : FVec F S32 .f32) :
    FVec F S100000x32 .f32 :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 col)
      (mulf (Host.gather gather_S100000x32_S1700000x1_S1700000x32_1_0_n_n_0_1_132 h (asIndex row))
        (broadcastInDim S1700000x32 ![0, 1] bcast_S1700000x1_S1700000x32_0_1 (broadcastInDim S1700000x1 ![0] bcast_S1700000_S1700000x1_0 wt))))
    (broadcastInDim S100000x32 ![0, 1] bcast_S1x32_S100000x32_0_1 (broadcastInDim S1x32 ![1] bcast_S32_S1x32_1 b))

/-- The first layer's output: relu of the messages. -/
def hidden (row col : IVec S1700000 32) (wt : FVec F S1700000 .f32) (h : FVec F S100000x32 .f32) (b : FVec F S32 .f32) :
    FVec F S100000x32 .f32 :=
  maximumf (messages32 row col wt h b) (broadcastInDim S100000x32 ![] bcast_S_S100000x32 (constant S_ .f32 0x00000000#32))

/-- The same round over 16 features. -/
def messages16 (row col : IVec S1700000 32) (wt : FVec F S1700000 .f32) (h : FVec F S100000x16 .f32) (b : FVec F S16 .f32) :
    FVec F S100000x16 .f32 :=
  addf
    (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 col)
      (mulf (Host.gather gather_S100000x16_S1700000x1_S1700000x16_1_0_n_n_0_1_116 h (asIndex row))
        (broadcastInDim S1700000x16 ![0, 1] bcast_S1700000x1_S1700000x16_0_1 (broadcastInDim S1700000x1 ![0] bcast_S1700000_S1700000x1_0 wt))))
    (broadcastInDim S100000x16 ![0, 1] bcast_S1x16_S100000x16_0_1 (broadcastInDim S1x16 ![1] bcast_S16_S1x16_1 b))

/-- The maximum of each row (taken from -inf, as the reduction is printed). -/
def rowMax (z : FVec F S100000x16 .f32) : FVec F S100000 .f32 :=
  Host.reduce FloatOps.maximumf z (constant S_ .f32 0xFF800000#32) reducesTo_S100000x16_S100000_d1 h_S_

/-- A row minus a per-row value `mx` (its maximum, where this is used), `mx` first joined with -inf as printed. -/
def centred (z : FVec F S100000x16 .f32) (mx : FVec F S100000 .f32) : FVec F S100000x16 .f32 :=
  subf z (broadcastInDim S100000x16 ![0, 1] bcast_S100000x1_S100000x16_0_1 (broadcastInDim S100000x1 ![0] bcast_S100000_S100000x1_0
    (maximumf (broadcastInDim S100000 ![] bcast_S_S100000 (constant S_ .f32 0xFF800000#32)) mx)))

/-- The centred row minus the log of the sum of its exponentials, the row's maximum `mx` given. -/
def logSoftmaxWith (z : FVec F S100000x16 .f32) (mx : FVec F S100000 .f32) : FVec F S100000x16 .f32 :=
  subf (centred z mx) (broadcastInDim S100000x16 ![0, 1] bcast_S100000x1_S100000x16_0_1 (Host.log (broadcastInDim S100000x1 ![0] bcast_S100000_S100000x1_0
    (Host.reduceAdd (Host.exp (centred z mx)) (constant S_ .f32 0x00000000#32) reducesTo_S100000x16_S100000_d1 h_S_))))

/-- Log-softmax along the class axis: each row centred by its maximum, minus the log of the sum of its exponentials. -/
def logSoftmax (z : FVec F S100000x16 .f32) : FVec F S100000x16 .f32 :=
  logSoftmaxWith z (rowMax z)

end Cert.KernelIdeal.Stages

end
-- ==== Proof.KernelStretches.lean ====
/-
  What each stretch of the kernel's host operations leaves behind, as the staged functions of what it found.

  @main's host operations come in three groups, cut by the two matrix-product regions. From ANY contents `V` of the
  device's buffers: the first group leaves the edge list's rows, columns and edge weights; the second, given the first
  product in its buffer, leaves the hidden layer; the third, given the second product, leaves the log-softmax of the second
  round of messages. Each group also leaves alone every buffer it does not write — the ones a later group still reads.
  The proofs only run the fold of the operations' results over the printed lists; no arithmetic happens here.
-/
import proofs.«104740_j17300128268933_1_alg».proof.Proof.Gen.KernelIdeal.Launch
import proofs.«104740_j17300128268933_1_alg».proof.Proof.Stages
import Idealize.ShloMosaic.Lib.StableHlo.Run
import Idealize.ShloMosaic.Lib.Pipeline.Frame

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen Cert.KernelIdeal.Stages

variable {F : FTy → Type} [FloatOps F]
variable (V : Valuation τ sig (Elt F))

/-! ## The first group: the graph's normalisation -/

/-- After the first group a buffer holds what the three stretches, in order, leave there. -/
abbrev afterNorm : Valuation τ sig (Elt F) :=
  StableHlo.after hostOps0_2 (StableHlo.after hostOps0_1 (StableHlo.after hostOps0 V))

set_option maxHeartbeats 4000000 in
theorem norm_row : afterNorm V (Proc.devRef .tc main_v3) = rowOf (V (Proc.devRef .tc main_arg1)) := by
  simp only [afterNorm, hostOps0, hostOps0_1, hostOps0_2]
  after_results_simp
  rfl

set_option maxHeartbeats 4000000 in
theorem norm_col : afterNorm V (Proc.devRef .tc main_v6) = colOf (V (Proc.devRef .tc main_arg1)) := by
  simp only [afterNorm, hostOps0, hostOps0_1, hostOps0_2]
  after_results_simp
  rfl

set_option maxHeartbeats 4000000 in
theorem norm_weight : afterNorm V (Proc.devRef .tc main_v31)
    = edgeWeight (F := F) (rowOf (V (Proc.devRef .tc main_arg1))) (colOf (V (Proc.devRef .tc main_arg1))) := by
  simp only [afterNorm, hostOps0, hostOps0_1, hostOps0_2]
  after_results_simp
  rfl

/-- The first group writes none of the float arguments: the regions and the later groups find them as launched. -/
theorem norm_keeps_arg0 : afterNorm V (Proc.devRef .tc main_arg0) = V (Proc.devRef .tc main_arg0) := by
  simp only [afterNorm, hostOps0, hostOps0_1, hostOps0_2]
  after_results_simp <;> rfl
theorem norm_keeps_arg2 : afterNorm V (Proc.devRef .tc main_arg2) = V (Proc.devRef .tc main_arg2) := by
  simp only [afterNorm, hostOps0, hostOps0_1, hostOps0_2]
  after_results_simp <;> rfl
theorem norm_keeps_arg3 : afterNorm V (Proc.devRef .tc main_arg3) = V (Proc.devRef .tc main_arg3) := by
  simp only [afterNorm, hostOps0, hostOps0_1, hostOps0_2]
  after_results_simp <;> rfl
theorem norm_keeps_arg4 : afterNorm V (Proc.devRef .tc main_arg4) = V (Proc.devRef .tc main_arg4) := by
  simp only [afterNorm, hostOps0, hostOps0_1, hostOps0_2]
  after_results_simp <;> rfl
theorem norm_keeps_arg5 : afterNorm V (Proc.devRef .tc main_arg5) = V (Proc.devRef .tc main_arg5) := by
  simp only [afterNorm, hostOps0, hostOps0_1, hostOps0_2]
  after_results_simp <;> rfl

/-! ## The second group: the first round of messages, and relu -/

/-- After the second group. -/
abbrev afterHidden : Valuation τ sig (Elt F) :=
  StableHlo.after hostOps1_1 (StableHlo.after hostOps1 V)

set_option maxHeartbeats 4000000 in
/-- The hidden layer, from the rows, columns and weights the first group left, the first product and the first bias. -/
theorem hidden_eq : afterHidden V (Proc.devRef .tc main_v49)
    = hidden (F := F) (V (Proc.devRef .tc main_v3)) (V (Proc.devRef .tc main_v6)) (V (Proc.devRef .tc main_v31))
        (V (Proc.devRef .tc main_v32)) (V (Proc.devRef .tc main_arg3)) := by
  simp only [afterHidden, hostOps1, hostOps1_1]
  after_results_simp
  rfl

/-- The second group leaves alone what the third still reads. -/
theorem hidden_keeps_v3 : afterHidden V (Proc.devRef .tc main_v3) = V (Proc.devRef .tc main_v3) := by
  simp only [afterHidden, hostOps1, hostOps1_1]
  after_results_simp <;> rfl
theorem hidden_keeps_v6 : afterHidden V (Proc.devRef .tc main_v6) = V (Proc.devRef .tc main_v6) := by
  simp only [afterHidden, hostOps1, hostOps1_1]
  after_results_simp <;> rfl
theorem hidden_keeps_v31 : afterHidden V (Proc.devRef .tc main_v31) = V (Proc.devRef .tc main_v31) := by
  simp only [afterHidden, hostOps1, hostOps1_1]
  after_results_simp <;> rfl
theorem hidden_keeps_arg4 : afterHidden V (Proc.devRef .tc main_arg4) = V (Proc.devRef .tc main_arg4) := by
  simp only [afterHidden, hostOps1, hostOps1_1]
  after_results_simp <;> rfl
theorem hidden_keeps_arg5 : afterHidden V (Proc.devRef .tc main_arg5) = V (Proc.devRef .tc main_arg5) := by
  simp only [afterHidden, hostOps1, hostOps1_1]
  after_results_simp <;> rfl

/-! ## The third group: the second round of messages, and log-softmax

The log-softmax's fifteen operations are read in two parts, cut after the row maxima are taken: the maximum is the one
operation here that is a fold over the whole array, and it is read by itself. -/

set_option maxHeartbeats 4000000 in
/-- The second round of messages, from the rows, columns and weights, the second product and the second bias. -/
theorem messages_eq : StableHlo.after hostOps2 V (Proc.devRef .tc main_v66)
    = messages16 (F := F) (V (Proc.devRef .tc main_v3)) (V (Proc.devRef .tc main_v6)) (V (Proc.devRef .tc main_v31))
        (V (Proc.devRef .tc main_v50)) (V (Proc.devRef .tc main_arg5)) := by
  simp only [hostOps2]
  after_results_simp
  rfl

/-- The log-softmax's first two operations: the constant -inf and the row maxima. -/
abbrev maxOps : List (HloOp τ sig (Elt F)) := (hostOps2_1 (F := F)).take 2
/-- Its other thirteen. -/
abbrev restOps : List (HloOp τ sig (Elt F)) := (hostOps2_1 (F := F)).drop 2

theorem softmax_cut : StableHlo.after hostOps2_1 V = StableHlo.after restOps (StableHlo.after maxOps V) := by
  rw [← StableHlo.after_append]
  exact congrArg (fun l => StableHlo.after l V) (List.take_append_drop 2 (hostOps2_1 (F := F))).symm

/-- The row maxima of what the messages left. -/
theorem rowMax_eq : StableHlo.after maxOps V (Proc.devRef .tc main_call2_v0) = rowMax (F := F) (V (Proc.devRef .tc main_v66)) := by
  simp only [maxOps, hostOps2_1, List.take_succ_cons, List.take_zero]
  after_results_simp
  simp only [rowMax, TRef.toBuf, TRef.ofBuf, cast_eq]

theorem rowMax_keeps_v66 : StableHlo.after maxOps V (Proc.devRef .tc main_v66) = V (Proc.devRef .tc main_v66) := by
  simp only [maxOps, hostOps2_1, List.take_succ_cons, List.take_zero]
  after_results_simp <;> rfl

set_option maxHeartbeats 4000000 in
/-- The rest of the log-softmax, from the array and its row maxima. -/
theorem softmaxRest_eq : StableHlo.after restOps V (Proc.devRef .tc main_v67)
    = logSoftmaxWith (F := F) (V (Proc.devRef .tc main_v66)) (V (Proc.devRef .tc main_call2_v0)) := by
  simp only [restOps, hostOps2_1, List.drop_succ_cons, List.drop_zero]
  after_results_simp
  rfl

/-- After the third group. -/
abbrev afterOut : Valuation τ sig (Elt F) :=
  StableHlo.after hostOps2_1 (StableHlo.after hostOps2 V)

/-- The result, from the rows, columns and weights, the second product and the second bias. -/
theorem out_eq : afterOut V (Proc.devRef .tc main_v67)
    = logSoftmax (F := F) (messages16 (V (Proc.devRef .tc main_v3)) (V (Proc.devRef .tc main_v6)) (V (Proc.devRef .tc main_v31))
        (V (Proc.devRef .tc main_v50)) (V (Proc.devRef .tc main_arg5))) := by
  show StableHlo.after hostOps2_1 (StableHlo.after hostOps2 V) (Proc.devRef .tc main_v67) = _
  rw [softmax_cut, softmaxRest_eq, rowMax_eq, rowMax_keeps_v66, messages_eq]
  rfl

end Cert.KernelIdeal.Stretches

end
-- ==== Proof.MatSpec.lean ====
/-
  The matrix product over the extended reals, and a contraction over one axis read as it.

  Both programs multiply a tall matrix by a small one: the kernel block by block (4000 rows at a time, the whole inner
  axis resident), the reference in one `dot_general`. At the ideal instance either is the plain sum
  `∑ k, x[r, k] · w[k, c]` over the inner axis — a finite sum in the commutative monoid of the extended reals, so neither
  the order of the terms nor the cut into row blocks matters and no finiteness of the entries is used.
-/
import Idealize.ShloMosaic.PureOps.Ideal.Laws
import Idealize.ShloMosaic.Lib.ValueIdx

noncomputable section

open scoped BigOperators

namespace Cert.Spec

open Idealize.ShloMosaic Idealize.ShloMosaic.ValueIdx

/-- Rows by columns: entry `(r, c)` of the product of an `M × K` and a `K × N` array of extended reals is the sum over the
    inner index `k` of `x[r, k] · w[k, c]`. -/
def rowsByCols {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 ⟨(i 0).val, idx2_lt0 i⟩ k) * w (ix2 k ⟨(i 1).val, idx2_lt1 i⟩)

/-- At an index given by its coordinates the product reads row `r` of `x` against column `c` of `w`. -/
theorem rowsByCols_ix2 {M K N : Nat} (x : (⟨2, ![M, K]⟩ : Shape).Idx → EReal) (w : (⟨2, ![K, N]⟩ : Shape).Idx → EReal)
    (r : Fin M) (c : Fin N) : rowsByCols x w (ix2 r c) = ∑ k : Fin K, x (ix2 r k) * w (ix2 k c) := rfl

/-- A contraction whose dimension numbers contract ONE axis of extent `K` — the left operand's axis 1 against the right
    operand's axis 0, the left's axis 0 and the right's axis 1 kept (the four coordinate facts `hl0 … hr1`) — is rows by
    columns: the contraction index is its one coordinate (`contrEquiv1`), and the sum is re-indexed through that
    bijection. -/
theorem contraction_eq_rowsByCols {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (x : (⟨2, ![M, K]⟩ : Shape).Idx → EReal) (w : (⟨2, ![K, N]⟩ : Shape).Idx → EReal) (i : (⟨2, ![M, N]⟩ : Shape).Idx) :
    ∑ q : d.contr.Idx, x (d.lhsIdx i q) * w (d.rhsIdx i q) = rowsByCols x w i := by
  unfold rowsByCols
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 ⟨(i 0).val, idx2_lt0 i⟩ k := funext fun a => Fin.ext (by
    match a with
    | ⟨0, _⟩ => exact hl0 _ _
    | ⟨1, _⟩ => exact (hl1 _ _).trans hk)
  have er : d.rhsIdx i ((contrEquiv1 d K hr hs).symm k) = ix2 k ⟨(i 1).val, idx2_lt1 i⟩ := funext fun a => Fin.ext (by
    match a with
    | ⟨0, _⟩ => exact (hr0 _ _).trans hk
    | ⟨1, _⟩ => exact hr1 _ _)
  rw [el, er]

/-- The matrix unit's product into a zero accumulator is rows by columns. -/
theorem matmul_zero_eq_rowsByCols {M K N : Nat} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (x : FVec Ideal ⟨2, ![M, K]⟩ .f32) (w : FVec Ideal ⟨2, ![K, N]⟩ .f32) :
    FloatOps.matmul d prec x w (constant (F := Ideal) ⟨2, ![M, N]⟩ .f32 0x00000000#32) = rowsByCols x w :=
  funext fun i => (Ideal.matmul_constant_zero_apply d prec x w i).trans
    (contraction_eq_rowsByCols d hr hs hl0 hl1 hr0 hr1 x w i)

/-- The host's `dot_general` is rows by columns. -/
theorem dotGeneral_eq_rowsByCols {M K N : Nat} (d : DotDims ⟨2, ![M, K]⟩ ⟨2, ![K, N]⟩ ⟨2, ![M, N]⟩)
    (prec : Option ContractPrecision) (sched : HostSchedule)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (x : FVec Ideal ⟨2, ![M, K]⟩ .f32) (w : FVec Ideal ⟨2, ![K, N]⟩ .f32) :
    FloatOps.dotGeneral d prec sched x w = rowsByCols x w :=
  funext fun i => (Ideal.dotGeneral_apply d prec sched x w i).trans
    (contraction_eq_rowsByCols d hr hs hl0 hl1 hr0 hr1 x w i)

end Cert.Spec

end
-- ==== Proof.FirstProduct.lean ====
/-
  The first matrix product, x · W1, as the kernel computes it: block by block, and the whole array it leaves.

  The region multiplies a 100000 × 512 array by a 512 × 32 one in 25 grid points: point `t` stages rows
  4000·t … 4000·t + 3999 of the left operand whole (all 512 columns), the right operand whole, multiplies them on the matrix
  unit into a zero accumulator and writes the 4000 × 32 result back as rows 4000·t … of the output. At the ideal instance
  the change of float format before the product is the identity and the product is the plain sum over the inner index, so
  entry `(r, c)` of block `t` is `∑ k, x[4000·t + r, k] · w[k, c]`: the block is the restriction of ONE whole-array function,
  rows by columns of the two operands as the region finds them. The 25 row blocks tile the output, so after the last
  write-back the output array is that function.
-/
import proofs.«104740_j17300128268933_1_alg».proof.Proof.Gen.KernelIdeal.Frame
import proofs.«104740_j17300128268933_1_alg».proof.Proof.MatSpec
import Idealize.ShloMosaic.Lib.Pipeline.Value

set_option maxRecDepth 16384

noncomputable section

namespace Cert.KernelIdeal.FirstProduct

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

/-! ## The matrix unit's dimension numbers: which coordinate of an operand each index supplies -/

theorem lhs_row (i : S4000x32.Idx) (q : dot_S4000x512_S512x32_S4000x32_1_0_0_1_n_n.contr.Idx) : (dot_S4000x512_S512x32_S4000x32_1_0_0_1_n_n.lhsIdx i q 0).val = (i 0).val := by
  unfold DotDims.lhsIdx
  rw [dif_neg (show ¬(0 : Fin S4000x512.rank) ∈ dot_S4000x512_S512x32_S4000x32_1_0_0_1_n_n.lhsBatch by decide), dif_pos (show (0 : Fin S4000x512.rank) ∈ dot_S4000x512_S512x32_S4000x32_1_0_0_1_n_n.lhsNonContracting by decide)]
  rfl
theorem lhs_inner (i : S4000x32.Idx) (q : dot_S4000x512_S512x32_S4000x32_1_0_0_1_n_n.contr.Idx) : (dot_S4000x512_S512x32_S4000x32_1_0_0_1_n_n.lhsIdx i q 1).val = (q ⟨0, by decide⟩).val :=
  dot_S4000x512_S512x32_S4000x32_1_0_0_1_n_n.lhsIdx_val_of_single rfl i q
theorem rhs_inner (i : S4000x32.Idx) (q : dot_S4000x512_S512x32_S4000x32_1_0_0_1_n_n.contr.Idx) : (dot_S4000x512_S512x32_S4000x32_1_0_0_1_n_n.rhsIdx i q 0).val = (q ⟨0, by decide⟩).val :=
  dot_S4000x512_S512x32_S4000x32_1_0_0_1_n_n.rhsIdx_val_of_single rfl i q
theorem rhs_col (i : S4000x32.Idx) (q : dot_S4000x512_S512x32_S4000x32_1_0_0_1_n_n.contr.Idx) : (dot_S4000x512_S512x32_S4000x32_1_0_0_1_n_n.rhsIdx i q 1).val = (i 1).val := by
  unfold DotDims.rhsIdx
  rw [dif_neg (show ¬(1 : Fin S512x32.rank) ∈ dot_S4000x512_S512x32_S4000x32_1_0_0_1_n_n.rhsBatch by decide), dif_pos (show (1 : Fin S512x32.rank) ∈ dot_S4000x512_S512x32_S4000x32_1_0_0_1_n_n.rhsNonContracting by decide)]
  rfl

/-! ## One grid point: the body's stored value is rows by columns of the two staged blocks -/

/-- The stored value, as a function of the two loaded blocks: the product of the left block by the right one. -/
theorem stored_eq (x0 : Vec Ideal S4000x512 .f32) (x1 : Vec Ideal S512x32 .f32) :
    k0_pay1 (F := Ideal) x0 x1 = rowsByCols x0 x1 := by
  unfold k0_pay1
  exact matmul_zero_eq_rowsByCols dot_S4000x512_S512x32_S4000x32_1_0_0_1_n_n none rfl rfl lhs_row lhs_inner rhs_inner rhs_col x0 x1

/-! ## From blocks to the array -/

section
variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the 25 grid points: the left operand's block and the output's block are both
    row block `t` (column block 0); the right operand's block is always the whole array. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of rows by columns of the two operand arrays as the region finds them: a row of
    the left block is row 4000·t + r of the array, the right block is the array, an entry of the output block sits at
    row 4000·t + r. -/
theorem flushed_eq (c : Dev nD) (t : Fin cfg0.N) :
    (dat0 V c).flushed 2 t
      = ((cfg0.win 2).blk t).view.read (Elt Ideal) (rowsByCols (V c main_arg0) (V c main_arg2)) := by
  show (cfg0.win 2).cut (grid0.coords t) ((dat0 V c).after 2 t) = _
  rw [after0_2]
  unfold out0_2
  rw [View.canon_unit_zero offsets_zero]
  simp only [View.ld_unit_zero (S := S4000x512) offsets_zero, View.ld_unit_zero (S := S512x32) offsets_zero]
  rw [stored_eq]
  obtain ⟨e0, e1, e2, e3, e4, e5⟩ := block_indices t
  funext j
  show rowsByCols (iblk0 V c 0 t) (iblk0 V c 1 t) j = rowsByCols (V c main_arg0) (V c main_arg2) (((cfg0.win 2).blk t).view.emb j)
  unfold rowsByCols
  refine Finset.sum_congr rfl fun k _ => ?_
  have h0 : ((cfg0.win 0).blk t).view.emb (ix2 ⟨(j 0).val, idx2_lt0 j⟩ k)
      = ix2 ⟨((((cfg0.win 2).blk t).view.emb j) 0).val, idx2_lt0 _⟩ k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have h1 : ((cfg0.win 1).blk t).view.emb (ix2 k ⟨(j 1).val, idx2_lt1 j⟩)
      = ix2 k ⟨((((cfg0.win 2).blk t).view.emb j) 1).val, idx2_lt1 _⟩ := by
    funext a; apply Fin.ext
    match a with
    | ⟨0, _⟩ => show win0_1.index t (0 : Fin 2) * 512 + 1 * k.val = k.val; omega
    | ⟨1, _⟩ => show win0_1.index t (1 : Fin 2) * 32 + 1 * (j 1).val = win0_2.index t (1 : Fin 2) * 32 + 1 * (j 1).val; omega
  exact congrArg₂ (· * ·) (congrArg (V c main_arg0) h0) (congrArg (V c main_arg2) h1)

/-- An index of the output array is in point `t`'s block iff each coordinate is in the block's range on its axis. -/
theorem mem_block (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v32).slice (win0_2.rect t)).set ↔ _
  rw [View.set_slice_whole, Rect.mem_set_unit]
  exact Iff.rfl

/-- The row blocks tile the output: row `r` is in the block of point `r / 4000`. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  obtain ⟨e0, e1, e2, e3, e4, e5⟩ := block_indices t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 32 ≤ (i 1).val ∧ (i 1).val < win0_2.index t (1 : Fin 2) * 32 + 32; omega

/-- THE OUTPUT ARRAY after the region: rows by columns of the two operand arrays as the region finds them. -/
theorem output_eq (c : Dev nD) :
    (dat0 V c).arrAt 2 cfg0.N = rowsByCols (V c main_arg0) (V c main_arg2) :=
  (dat0 V c).arrAt_eq_of_cover 2 (rowsByCols (V c main_arg0) (V c main_arg2)) (fun t _ => flushed_eq V c t) covered

end

end Cert.KernelIdeal.FirstProduct

end
-- ==== Proof.SecondProduct.lean ====
/-
  The second matrix product, h · W2, as the kernel computes it: block by block, and the whole array it leaves.

  The region multiplies a 100000 × 32 array by a 32 × 16 one in 25 grid points: point `t` stages rows
  4000·t … 4000·t + 3999 of the left operand whole (all 32 columns), the right operand whole, multiplies them on the matrix
  unit into a zero accumulator and writes the 4000 × 16 result back as rows 4000·t … of the output. At the ideal instance
  the change of float format before the product is the identity and the product is the plain sum over the inner index, so
  entry `(r, c)` of block `t` is `∑ k, x[4000·t + r, k] · w[k, c]`: the block is the restriction of ONE whole-array function,
  rows by columns of the two operands as the region finds them. The 25 row blocks tile the output, so after the last
  write-back the output array is that function.
-/
import proofs.«104740_j17300128268933_1_alg».proof.Proof.Gen.KernelIdeal.Frame
import proofs.«104740_j17300128268933_1_alg».proof.Proof.MatSpec
import Idealize.ShloMosaic.Lib.Pipeline.Value

set_option maxRecDepth 16384

noncomputable section

namespace Cert.KernelIdeal.SecondProduct

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

/-! ## The matrix unit's dimension numbers: which coordinate of an operand each index supplies -/

theorem lhs_row (i : S4000x16.Idx) (q : dot_S4000x32_S32x16_S4000x16_1_0_0_1_n_n.contr.Idx) : (dot_S4000x32_S32x16_S4000x16_1_0_0_1_n_n.lhsIdx i q 0).val = (i 0).val := by
  unfold DotDims.lhsIdx
  rw [dif_neg (show ¬(0 : Fin S4000x32.rank) ∈ dot_S4000x32_S32x16_S4000x16_1_0_0_1_n_n.lhsBatch by decide), dif_pos (show (0 : Fin S4000x32.rank) ∈ dot_S4000x32_S32x16_S4000x16_1_0_0_1_n_n.lhsNonContracting by decide)]
  rfl
theorem lhs_inner (i : S4000x16.Idx) (q : dot_S4000x32_S32x16_S4000x16_1_0_0_1_n_n.contr.Idx) : (dot_S4000x32_S32x16_S4000x16_1_0_0_1_n_n.lhsIdx i q 1).val = (q ⟨0, by decide⟩).val :=
  dot_S4000x32_S32x16_S4000x16_1_0_0_1_n_n.lhsIdx_val_of_single rfl i q
theorem rhs_inner (i : S4000x16.Idx) (q : dot_S4000x32_S32x16_S4000x16_1_0_0_1_n_n.contr.Idx) : (dot_S4000x32_S32x16_S4000x16_1_0_0_1_n_n.rhsIdx i q 0).val = (q ⟨0, by decide⟩).val :=
  dot_S4000x32_S32x16_S4000x16_1_0_0_1_n_n.rhsIdx_val_of_single rfl i q
theorem rhs_col (i : S4000x16.Idx) (q : dot_S4000x32_S32x16_S4000x16_1_0_0_1_n_n.contr.Idx) : (dot_S4000x32_S32x16_S4000x16_1_0_0_1_n_n.rhsIdx i q 1).val = (i 1).val := by
  unfold DotDims.rhsIdx
  rw [dif_neg (show ¬(1 : Fin S32x16.rank) ∈ dot_S4000x32_S32x16_S4000x16_1_0_0_1_n_n.rhsBatch by decide), dif_pos (show (1 : Fin S32x16.rank) ∈ dot_S4000x32_S32x16_S4000x16_1_0_0_1_n_n.rhsNonContracting by decide)]
  rfl

/-! ## One grid point: the body's stored value is rows by columns of the two staged blocks -/

/-- The stored value, as a function of the two loaded blocks: the product of the left block by the right one (the body
    first casts the left block to the shape it already has, which changes nothing). -/
theorem stored_eq (x0 : Vec Ideal S4000x32 .f32) (x1 : Vec Ideal S32x16 .f32) :
    k1_pay1 (F := Ideal) x0 x1 = rowsByCols x0 x1 := by
  unfold k1_pay1
  simp only [shapeCast_self]
  exact matmul_zero_eq_rowsByCols dot_S4000x32_S32x16_S4000x16_1_0_0_1_n_n none rfl rfl lhs_row lhs_inner rhs_inner rhs_col x0 x1

/-! ## From blocks to the array -/

section
variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the 25 grid points: the left operand's block and the output's block are both
    row block `t` (column block 0); the right operand's block is always the whole array. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT `t` WRITES BACK is block `t` of rows by columns of the two operand arrays as the region finds them: a row of
    the left block is row 4000·t + r of the array, the right block is the array, an entry of the output block sits at
    row 4000·t + r. -/
theorem flushed_eq (c : Dev nD) (t : Fin cfg1.N) :
    (dat1 V c).flushed 2 t
      = ((cfg1.win 2).blk t).view.read (Elt Ideal) (rowsByCols (V c main_v49) (V c main_arg4)) := by
  show (cfg1.win 2).cut (grid1.coords t) ((dat1 V c).after 2 t) = _
  rw [after1_2]
  unfold out1_2
  rw [View.canon_unit_zero offsets_zero]
  simp only [View.ld_unit_zero (S := S4000x32) offsets_zero, View.ld_unit_zero (S := S32x16) offsets_zero]
  rw [stored_eq]
  obtain ⟨e0, e1, e2, e3, e4, e5⟩ := block_indices t
  funext j
  show rowsByCols (iblk1 V c 0 t) (iblk1 V c 1 t) j = rowsByCols (V c main_v49) (V c main_arg4) (((cfg1.win 2).blk t).view.emb j)
  unfold rowsByCols
  refine Finset.sum_congr rfl fun k _ => ?_
  have h0 : ((cfg1.win 0).blk t).view.emb (ix2 ⟨(j 0).val, idx2_lt0 j⟩ k)
      = ix2 ⟨((((cfg1.win 2).blk t).view.emb j) 0).val, idx2_lt0 _⟩ k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 32 + 1 * k.val = k.val; omega
  have h1 : ((cfg1.win 1).blk t).view.emb (ix2 k ⟨(j 1).val, idx2_lt1 j⟩)
      = ix2 k ⟨((((cfg1.win 2).blk t).view.emb j) 1).val, idx2_lt1 _⟩ := by
    funext a; apply Fin.ext
    match a with
    | ⟨0, _⟩ => show win1_1.index t (0 : Fin 2) * 32 + 1 * k.val = k.val; omega
    | ⟨1, _⟩ => show win1_1.index t (1 : Fin 2) * 16 + 1 * (j 1).val = win1_2.index t (1 : Fin 2) * 16 + 1 * (j 1).val; omega
  exact congrArg₂ (· * ·) (congrArg (V c main_v49) h0) (congrArg (V c main_arg4) h1)

/-- An index of the output array is in point `t`'s block iff each coordinate is in the block's range on its axis. -/
theorem mem_block (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v50).slice (win1_2.rect t)).set ↔ _
  rw [View.set_slice_whole, Rect.mem_set_unit]
  exact Iff.rfl

/-- The row blocks tile the output: row `r` is in the block of point `r / 4000`. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 25 := N_1
  let t : Fin cfg1.N := ⟨(i 0).val / 4000, by rw [hN]; omega⟩
  obtain ⟨e0, e1, e2, e3, e4, e5⟩ := block_indices t
  have ht : t.val = (i 0).val / 4000 := rfl
  refine ⟨t, flush1_2 t, ?_⟩
  rw [mem_block]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 16 ≤ (i 1).val ∧ (i 1).val < win1_2.index t (1 : Fin 2) * 16 + 16; omega

/-- THE OUTPUT ARRAY after the region: rows by columns of the two operand arrays as the region finds them. -/
theorem output_eq (c : Dev nD) :
    (dat1 V c).arrAt 2 cfg1.N = rowsByCols (V c main_v49) (V c main_arg4) :=
  (dat1 V c).arrAt_eq_of_cover 2 (rowsByCols (V c main_v49) (V c main_arg4)) (fun t _ => flushed_eq V c t) covered

end

end Cert.KernelIdeal.SecondProduct

end
-- ==== Proof.Network.lean ====
/-
  The whole network as one function of the six arguments.

  Two rounds of normalised message passing around two matrix products: with `row`, `col` the edge list with self loops
  and `wt` the symmetric edge weights, the result is
  `logSoftmax (messages16 row col wt (hidden row col wt (x · W1) b1 · W2) b2)`, the products taken over the extended reals.
-/
import proofs.«104740_j17300128268933_1_alg».proof.Proof.Stages
import proofs.«104740_j17300128268933_1_alg».proof.Proof.MatSpec

noncomputable section

namespace Cert.KernelIdeal.Stages

open Idealize.ShloMosaic Cert.KernelIdeal Cert.Spec

variable [Cert.KernelIdeal.Facts]

/-- The two-layer graph convolution at the ideal instance, of the node features `x`, the edge list `ei`, and the two layers'
    weights and biases. -/
def network (x : FVec Ideal S100000x512 .f32) (ei : IVec S2x1600000 32) (w1 : FVec Ideal S512x32 .f32) (b1 : FVec Ideal S32 .f32)
    (w2 : FVec Ideal S32x16 .f32) (b2 : FVec Ideal S16 .f32) : FVec Ideal S100000x16 .f32 :=
  logSoftmax (F := Ideal) (messages16 (F := Ideal) (rowOf ei) (colOf ei) (edgeWeight (F := Ideal) (rowOf ei) (colOf ei))
    (rowsByCols (hidden (F := Ideal) (rowOf ei) (colOf ei) (edgeWeight (F := Ideal) (rowOf ei) (colOf ei)) (rowsByCols x w1) b1) w2) b2)

end Cert.KernelIdeal.Stages

end
-- ==== Proof.KernelValue.lean ====
/-
  The idealized kernel's result, as the network of its arguments.

  The fold of buffer contents `W0 … W9` through @main's nine segments is followed one boundary at a time, only at the
  buffers that matter: the rows, columns and edge weights (made by the first group of host operations and read by both
  later groups), the arguments, and the buffers the two products are written to. A host group leaves its staged function of
  what it found; a region leaves rows by columns in its output array and every other buffer alone.
-/
import proofs.«104740_j17300128268933_1_alg».proof.Proof.Gen.KernelIdeal.Frame
import proofs.«104740_j17300128268933_1_alg».proof.Proof.KernelStretches
import proofs.«104740_j17300128268933_1_alg».proof.Proof.FirstProduct
import proofs.«104740_j17300128268933_1_alg».proof.Proof.SecondProduct
import proofs.«104740_j17300128268933_1_alg».proof.Proof.Network

set_option maxRecDepth 16384

noncomputable section

namespace Cert.KernelIdeal.Whole

open Idealize.ShloMosaic Idealize.ShloMosaic.TcCoe Idealize.SL.Sem
open Cert.KernelIdeal Cert.KernelIdeal.Gen Cert.KernelIdeal.Stages Cert.KernelIdeal.Stretches Cert.Spec

variable (m : (ℓ : Loc nD τ sig) → Buf (Elt Ideal) ℓ) (ρ : Dev nD → PrngReg) (c : Dev nD)

set_option maxHeartbeats 2000000 in
/-- The result buffer at the last boundary holds the network of the launch arguments. -/
theorem result_eq : W9 m ρ c (Proc.devRef .tc main_v67)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the first region's entry: the first group of host operations has run from the launch contents
  have r3 : W3 m ρ c (Proc.devRef .tc main_v3) = (rowOf (m ((c : Thread nD τ).loc main_arg1))) := norm_row (W0 m ρ c)
  have c3 : W3 m ρ c (Proc.devRef .tc main_v6) = (colOf (m ((c : Thread nD τ).loc main_arg1))) := norm_col (W0 m ρ c)
  have w3 : W3 m ρ c (Proc.devRef .tc main_v31) = (edgeWeight (F := Ideal) (rowOf (m ((c : Thread nD τ).loc main_arg1))) (colOf (m ((c : Thread nD τ).loc main_arg1)))) := norm_weight (W0 m ρ c)
  have x3 : W3 m ρ c (Proc.devRef .tc main_arg0) = (m ((c : Thread nD τ).loc main_arg0)) := norm_keeps_arg0 (W0 m ρ c)
  have u3 : W3 m ρ c (Proc.devRef .tc main_arg2) = (m ((c : Thread nD τ).loc main_arg2)) := norm_keeps_arg2 (W0 m ρ c)
  have b3 : W3 m ρ c (Proc.devRef .tc main_arg3) = (m ((c : Thread nD τ).loc main_arg3)) := norm_keeps_arg3 (W0 m ρ c)
  have v3 : W3 m ρ c (Proc.devRef .tc main_arg4) = (m ((c : Thread nD τ).loc main_arg4)) := norm_keeps_arg4 (W0 m ρ c)
  have d3 : W3 m ρ c (Proc.devRef .tc main_arg5) = (m ((c : Thread nD τ).loc main_arg5)) := norm_keeps_arg5 (W0 m ρ c)
  -- the first region's exit: its output array is the first product, every other buffer as entered
  have p4 : W4 m ρ c (Proc.devRef .tc main_v32) = (rowsByCols (m ((c : Thread nD τ).loc main_arg0)) (m ((c : Thread nD τ).loc main_arg2))) := by
    refine (W4_arr m ρ c 2).trans ((FirstProduct.output_eq (V3 m ρ) c).trans ?_)
    show rowsByCols (W3 m ρ c (Proc.devRef .tc main_arg0)) (W3 m ρ c (Proc.devRef .tc main_arg2)) = _
    rw [x3, u3]
  have r4 : W4 m ρ c (Proc.devRef .tc main_v3) = (rowOf (m ((c : Thread nD τ).loc main_arg1))) := (W4_of_ne m ρ c main_v3 (by decide)).trans r3
  have c4 : W4 m ρ c (Proc.devRef .tc main_v6) = (colOf (m ((c : Thread nD τ).loc main_arg1))) := (W4_of_ne m ρ c main_v6 (by decide)).trans c3
  have w4 : W4 m ρ c (Proc.devRef .tc main_v31) = (edgeWeight (F := Ideal) (rowOf (m ((c : Thread nD τ).loc main_arg1))) (colOf (m ((c : Thread nD τ).loc main_arg1)))) := (W4_of_ne m ρ c main_v31 (by decide)).trans w3
  have b4 : W4 m ρ c (Proc.devRef .tc main_arg3) = (m ((c : Thread nD τ).loc main_arg3)) := (W4_of_ne m ρ c main_arg3 (by decide)).trans b3
  have v4 : W4 m ρ c (Proc.devRef .tc main_arg4) = (m ((c : Thread nD τ).loc main_arg4)) := (W4_of_ne m ρ c main_arg4 (by decide)).trans v3
  have d4 : W4 m ρ c (Proc.devRef .tc main_arg5) = (m ((c : Thread nD τ).loc main_arg5)) := (W4_of_ne m ρ c main_arg5 (by decide)).trans d3
  -- the second region's entry: the second group has run
  have h6 : W6 m ρ c (Proc.devRef .tc main_v49) = (hidden (F := Ideal) (rowOf (m ((c : Thread nD τ).loc main_arg1))) (colOf (m ((c : Thread nD τ).loc main_arg1))) (edgeWeight (F := Ideal) (rowOf (m ((c : Thread nD τ).loc main_arg1))) (colOf (m ((c : Thread nD τ).loc main_arg1)))) (rowsByCols (m ((c : Thread nD τ).loc main_arg0)) (m ((c : Thread nD τ).loc main_arg2))) (m ((c : Thread nD τ).loc main_arg3))) := by
    refine (hidden_eq (W4 m ρ c)).trans ?_
    rw [r4, c4, w4, p4, b4]
  have r6 : W6 m ρ c (Proc.devRef .tc main_v3) = (rowOf (m ((c : Thread nD τ).loc main_arg1))) := (hidden_keeps_v3 (W4 m ρ c)).trans r4
  have c6 : W6 m ρ c (Proc.devRef .tc main_v6) = (colOf (m ((c : Thread nD τ).loc main_arg1))) := (hidden_keeps_v6 (W4 m ρ c)).trans c4
  have w6 : W6 m ρ c (Proc.devRef .tc main_v31) = (edgeWeight (F := Ideal) (rowOf (m ((c : Thread nD τ).loc main_arg1))) (colOf (m ((c : Thread nD τ).loc main_arg1)))) := (hidden_keeps_v31 (W4 m ρ c)).trans w4
  have v6 : W6 m ρ c (Proc.devRef .tc main_arg4) = (m ((c : Thread nD τ).loc main_arg4)) := (hidden_keeps_arg4 (W4 m ρ c)).trans v4
  have d6 : W6 m ρ c (Proc.devRef .tc main_arg5) = (m ((c : Thread nD τ).loc main_arg5)) := (hidden_keeps_arg5 (W4 m ρ c)).trans d4
  -- the second region's exit
  have p7 : W7 m ρ c (Proc.devRef .tc main_v50) = (rowsByCols (hidden (F := Ideal) (rowOf (m ((c : Thread nD τ).loc main_arg1))) (colOf (m ((c : Thread nD τ).loc main_arg1))) (edgeWeight (F := Ideal) (rowOf (m ((c : Thread nD τ).loc main_arg1))) (colOf (m ((c : Thread nD τ).loc main_arg1)))) (rowsByCols (m ((c : Thread nD τ).loc main_arg0)) (m ((c : Thread nD τ).loc main_arg2))) (m ((c : Thread nD τ).loc main_arg3))) (m ((c : Thread nD τ).loc main_arg4))) := by
    refine (W7_arr m ρ c 2).trans ((SecondProduct.output_eq (V6 m ρ) c).trans ?_)
    show rowsByCols (W6 m ρ c (Proc.devRef .tc main_v49)) (W6 m ρ c (Proc.devRef .tc main_arg4)) = _
    rw [h6, v6]
  have r7 : W7 m ρ c (Proc.devRef .tc main_v3) = (rowOf (m ((c : Thread nD τ).loc main_arg1))) := (W7_of_ne m ρ c main_v3 (by decide)).trans r6
  have c7 : W7 m ρ c (Proc.devRef .tc main_v6) = (colOf (m ((c : Thread nD τ).loc main_arg1))) := (W7_of_ne m ρ c main_v6 (by decide)).trans c6
  have w7 : W7 m ρ c (Proc.devRef .tc main_v31) = (edgeWeight (F := Ideal) (rowOf (m ((c : Thread nD τ).loc main_arg1))) (colOf (m ((c : Thread nD τ).loc main_arg1)))) := (W7_of_ne m ρ c main_v31 (by decide)).trans w6
  have d7 : W7 m ρ c (Proc.devRef .tc main_arg5) = (m ((c : Thread nD τ).loc main_arg5)) := (W7_of_ne m ρ c main_arg5 (by decide)).trans d6
  -- the return: the third group has run
  refine (out_eq (W7 m ρ c)).trans ?_
  rw [r7, c7, w7, p7, d7]
  rfl

end Cert.KernelIdeal.Whole

end
-- ==== Proof.RefStretches.lean ====
/-
  What each stretch of the reference's operations leaves behind, as the same staged functions.

  The reference's @main is one line of 101 host operations: the kernel's host operations, one for one, with a whole
  `dot_general` where the kernel has a pipelined region. The line is cut at those two products (and once more inside the
  log-softmax, after the row maxima), and each piece is read from ANY contents `V` of the buffers exactly as the kernel's
  stretches are: the graph's rows, columns and edge weights; a product; the hidden layer; a product; the second round of
  messages; the row maxima; the rest of the log-softmax. The staged functions are the ones the kernel's stretches were
  read as — spelt over the kernel program's shape names, which denote the same literal shapes.
-/
import proofs.«104740_j17300128268933_1_alg».proof.Proof.RefRunPatched
import proofs.«104740_j17300128268933_1_alg».proof.Proof.Gen.KernelIdeal
import proofs.«104740_j17300128268933_1_alg».proof.Proof.Stages
import proofs.«104740_j17300128268933_1_alg».proof.Proof.MatSpec
import Idealize.ShloMosaic.Lib.StableHlo.Run
import Idealize.ShloMosaic.Lib.Pipeline.Frame

set_option maxRecDepth 16384

noncomputable section

namespace Cert.ReferenceIdeal.Stretches

open Idealize.ShloMosaic Idealize.ShloMosaic.TcCoe Idealize.ShloMosaic.StableHlo Idealize.SL.Sem
open Cert.ReferenceIdeal Cert.ReferenceIdeal.Gen Cert.ReferenceIdeal.ValueP
open Cert.KernelIdeal.Stages Cert.Spec

variable {F : FTy → Type} [FloatOps F]

/-! ## The line, cut -/

/-- The graph's normalisation: operations 1 … 43. -/
abbrev normOps : List (HloOp τ sig (Elt F)) := (ops (F := F)).take 43
/-- The first product: operation 44. -/
abbrev firstDot : List (HloOp τ sig (Elt F)) := ((ops (F := F)).drop 43).take 1
/-- The first round of messages and relu: operations 45 … 66. -/
abbrev hiddenOps : List (HloOp τ sig (Elt F)) := ((ops (F := F)).drop 44).take 22
/-- The second product: operation 67. -/
abbrev secondDot : List (HloOp τ sig (Elt F)) := ((ops (F := F)).drop 66).take 1
/-- The second round of messages: operations 68 … 86. -/
abbrev messageOps : List (HloOp τ sig (Elt F)) := ((ops (F := F)).drop 67).take 19
/-- The log-softmax's constant -inf and row maxima: operations 87, 88. -/
abbrev maxOps : List (HloOp τ sig (Elt F)) := ((ops (F := F)).drop 86).take 2
/-- The rest of the log-softmax: operations 89 … 101. -/
abbrev restOps : List (HloOp τ sig (Elt F)) := (ops (F := F)).drop 88

theorem ops_cut : (ops : List (HloOp τ sig (Elt F)))
    = normOps ++ (firstDot ++ (hiddenOps ++ (secondDot ++ (messageOps ++ (maxOps ++ restOps))))) := by
  rfl

variable (V : Valuation τ sig (Elt F))

/-- Running the whole line is running its seven pieces in order. -/
theorem after_cut : StableHlo.after ops V
    = StableHlo.after restOps (StableHlo.after maxOps (StableHlo.after messageOps (StableHlo.after secondDot
        (StableHlo.after hiddenOps (StableHlo.after firstDot (StableHlo.after normOps V)))))) := by
  conv_lhs => rw [ops_cut (F := F)]
  simp only [StableHlo.after_append]

/-! ## The graph's normalisation -/

set_option maxHeartbeats 4000000 in
theorem norm_row : StableHlo.after normOps V (Proc.devRef .tc main_v3) = rowOf (V (Proc.devRef .tc main_arg1)) := by
  simp only [normOps, ops, List.take_succ_cons, List.take_zero, List.drop_succ_cons, List.drop_zero]
  after_results_simp
  rfl

set_option maxHeartbeats 4000000 in
theorem norm_col : StableHlo.after normOps V (Proc.devRef .tc main_v6) = colOf (V (Proc.devRef .tc main_arg1)) := by
  simp only [normOps, ops, List.take_succ_cons, List.take_zero, List.drop_succ_cons, List.drop_zero]
  after_results_simp
  rfl

set_option maxHeartbeats 4000000 in
theorem norm_weight : StableHlo.after normOps V (Proc.devRef .tc main_v31)
    = edgeWeight (F := F) (rowOf (V (Proc.devRef .tc main_arg1))) (colOf (V (Proc.devRef .tc main_arg1))) := by
  simp only [normOps, ops, List.take_succ_cons, List.take_zero, List.drop_succ_cons, List.drop_zero]
  after_results_simp
  rfl

theorem norm_keeps_arg0 : StableHlo.after normOps V (Proc.devRef .tc main_arg0) = V (Proc.devRef .tc main_arg0) := by
  simp only [normOps, ops, List.take_succ_cons, List.take_zero, List.drop_succ_cons, List.drop_zero]
  after_results_simp <;> rfl
theorem norm_keeps_arg2 : StableHlo.after normOps V (Proc.devRef .tc main_arg2) = V (Proc.devRef .tc main_arg2) := by
  simp only [normOps, ops, List.take_succ_cons, List.take_zero, List.drop_succ_cons, List.drop_zero]
  after_results_simp <;> rfl
theorem norm_keeps_arg3 : StableHlo.after normOps V (Proc.devRef .tc main_arg3) = V (Proc.devRef .tc main_arg3) := by
  simp only [normOps, ops, List.take_succ_cons, List.take_zero, List.drop_succ_cons, List.drop_zero]
  after_results_simp <;> rfl
theorem norm_keeps_arg4 : StableHlo.after normOps V (Proc.devRef .tc main_arg4) = V (Proc.devRef .tc main_arg4) := by
  simp only [normOps, ops, List.take_succ_cons, List.take_zero, List.drop_succ_cons, List.drop_zero]
  after_results_simp <;> rfl
theorem norm_keeps_arg5 : StableHlo.after normOps V (Proc.devRef .tc main_arg5) = V (Proc.devRef .tc main_arg5) := by
  simp only [normOps, ops, List.take_succ_cons, List.take_zero, List.drop_succ_cons, List.drop_zero]
  after_results_simp <;> rfl

/-! ## The first product -/

theorem firstDot_eq : StableHlo.after firstDot V (Proc.devRef .tc main_v32)
    = Host.dotGeneral dot_S100000x512_S512x32_S100000x32_1_0_0_1_n_n none (V (Proc.devRef .tc main_arg0)) (V (Proc.devRef .tc main_arg2)) := by
  simp only [firstDot, ops, List.take_succ_cons, List.take_zero, List.drop_succ_cons, List.drop_zero]
  after_results_simp <;> rfl

theorem firstDot_keeps_v3 : StableHlo.after firstDot V (Proc.devRef .tc main_v3) = V (Proc.devRef .tc main_v3) := by
  simp only [firstDot, ops, List.take_succ_cons, List.take_zero, List.drop_succ_cons, List.drop_zero]
  after_results_simp <;> rfl
theorem firstDot_keeps_v6 : StableHlo.after firstDot V (Proc.devRef .tc main_v6) = V (Proc.devRef .tc main_v6) := by
  simp only [firstDot, ops, List.take_succ_cons, List.take_zero, List.drop_succ_cons, List.drop_zero]
  after_results_simp <;> rfl
theorem firstDot_keeps_v31 : StableHlo.after firstDot V (Proc.devRef .tc main_v31) = V (Proc.devRef .tc main_v31) := by
  simp only [firstDot, ops, List.take_succ_cons, List.take_zero, List.drop_succ_cons, List.drop_zero]
  after_results_simp <;> rfl
theorem firstDot_keeps_arg3 : StableHlo.after firstDot V (Proc.devRef .tc main_arg3) = V (Proc.devRef .tc main_arg3) := by
  simp only [firstDot, ops, List.take_succ_cons, List.take_zero, List.drop_succ_cons, List.drop_zero]
  after_results_simp <;> rfl
theorem firstDot_keeps_arg4 : StableHlo.after firstDot V (Proc.devRef .tc main_arg4) = V (Proc.devRef .tc main_arg4) := by
  simp only [firstDot, ops, List.take_succ_cons, List.take_zero, List.drop_succ_cons, List.drop_zero]
  after_results_simp <;> rfl
theorem firstDot_keeps_arg5 : StableHlo.after firstDot V (Proc.devRef .tc main_arg5) = V (Proc.devRef .tc main_arg5) := by
  simp only [firstDot, ops, List.take_succ_cons, List.take_zero, List.drop_succ_cons, List.drop_zero]
  after_results_simp <;> rfl

/-! ## The first round of messages, and relu -/

set_option maxHeartbeats 4000000 in
theorem hidden_eq : StableHlo.after hiddenOps V (Proc.devRef .tc main_v49)
    = hidden (F := F) (V (Proc.devRef .tc main_v3)) (V (Proc.devRef .tc main_v6)) (V (Proc.devRef .tc main_v31)) (V (Proc.devRef .tc main_v32)) (V (Proc.devRef .tc main_arg3)) := by
  simp only [hiddenOps, ops, List.take_succ_cons, List.take_zero, List.drop_succ_cons, List.drop_zero]
  after_results_simp
  rfl

theorem hidden_keeps_v3 : StableHlo.after hiddenOps V (Proc.devRef .tc main_v3) = V (Proc.devRef .tc main_v3) := by
  simp only [hiddenOps, ops, List.take_succ_cons, List.take_zero, List.drop_succ_cons, List.drop_zero]
  after_results_simp <;> rfl
theorem hidden_keeps_v6 : StableHlo.after hiddenOps V (Proc.devRef .tc main_v6) = V (Proc.devRef .tc main_v6) := by
  simp only [hiddenOps, ops, List.take_succ_cons, List.take_zero, List.drop_succ_cons, List.drop_zero]
  after_results_simp <;> rfl
theorem hidden_keeps_v31 : StableHlo.after hiddenOps V (Proc.devRef .tc main_v31) = V (Proc.devRef .tc main_v31) := by
  simp only [hiddenOps, ops, List.take_succ_cons, List.take_zero, List.drop_succ_cons, List.drop_zero]
  after_results_simp <;> rfl
theorem hidden_keeps_arg4 : StableHlo.after hiddenOps V (Proc.devRef .tc main_arg4) = V (Proc.devRef .tc main_arg4) := by
  simp only [hiddenOps, ops, List.take_succ_cons, List.take_zero, List.drop_succ_cons, List.drop_zero]
  after_results_simp <;> rfl
theorem hidden_keeps_arg5 : StableHlo.after hiddenOps V (Proc.devRef .tc main_arg5) = V (Proc.devRef .tc main_arg5) := by
  simp only [hiddenOps, ops, List.take_succ_cons, List.take_zero, List.drop_succ_cons, List.drop_zero]
  after_results_simp <;> rfl

/-! ## The second product -/

theorem secondDot_eq : StableHlo.after secondDot V (Proc.devRef .tc main_v50)
    = Host.dotGeneral dot_S100000x32_S32x16_S100000x16_1_0_0_1_n_n none (V (Proc.devRef .tc main_v49)) (V (Proc.devRef .tc main_arg4)) := by
  simp only [secondDot, ops, List.take_succ_cons, List.take_zero, List.drop_succ_cons, List.drop_zero]
  after_results_simp <;> rfl

theorem secondDot_keeps_v3 : StableHlo.after secondDot V (Proc.devRef .tc main_v3) = V (Proc.devRef .tc main_v3) := by
  simp only [secondDot, ops, List.take_succ_cons, List.take_zero, List.drop_succ_cons, List.drop_zero]
  after_results_simp <;> rfl
theorem secondDot_keeps_v6 : StableHlo.after secondDot V (Proc.devRef .tc main_v6) = V (Proc.devRef .tc main_v6) := by
  simp only [secondDot, ops, List.take_succ_cons, List.take_zero, List.drop_succ_cons, List.drop_zero]
  after_results_simp <;> rfl
theorem secondDot_keeps_v31 : StableHlo.after secondDot V (Proc.devRef .tc main_v31) = V (Proc.devRef .tc main_v31) := by
  simp only [secondDot, ops, List.take_succ_cons, List.take_zero, List.drop_succ_cons, List.drop_zero]
  after_results_simp <;> rfl
theorem secondDot_keeps_arg5 : StableHlo.after secondDot V (Proc.devRef .tc main_arg5) = V (Proc.devRef .tc main_arg5) := by
  simp only [secondDot, ops, List.take_succ_cons, List.take_zero, List.drop_succ_cons, List.drop_zero]
  after_results_simp <;> rfl

/-! ## The second round of messages, and log-softmax -/

set_option maxHeartbeats 4000000 in
theorem messages_eq : StableHlo.after messageOps V (Proc.devRef .tc main_v66)
    = messages16 (F := F) (V (Proc.devRef .tc main_v3)) (V (Proc.devRef .tc main_v6)) (V (Proc.devRef .tc main_v31)) (V (Proc.devRef .tc main_v50)) (V (Proc.devRef .tc main_arg5)) := by
  simp only [messageOps, ops, List.take_succ_cons, List.take_zero, List.drop_succ_cons, List.drop_zero]
  after_results_simp
  rfl

/-- The row maxima: the one operation here that is a fold over the whole array, read by itself. -/
theorem rowMax_eq : StableHlo.after maxOps V (Proc.devRef .tc main_call2_v0) = rowMax (F := F) (V (Proc.devRef .tc main_v66)) := by
  simp only [maxOps, ops, List.take_succ_cons, List.take_zero, List.drop_succ_cons, List.drop_zero]
  after_results_simp
  simp only [TRef.toBuf, TRef.ofBuf, cast_eq]
  rfl

theorem rowMax_keeps_v66 : StableHlo.after maxOps V (Proc.devRef .tc main_v66) = V (Proc.devRef .tc main_v66) := by
  simp only [maxOps, ops, List.take_succ_cons, List.take_zero, List.drop_succ_cons, List.drop_zero]
  after_results_simp <;> rfl

set_option maxHeartbeats 4000000 in
theorem softmaxRest_eq : StableHlo.after restOps V (Proc.devRef .tc main_v67)
    = logSoftmaxWith (F := F) (V (Proc.devRef .tc main_v66)) (V (Proc.devRef .tc main_call2_v0)) := by
  simp only [restOps, ops, List.take_succ_cons, List.take_zero, List.drop_succ_cons, List.drop_zero]
  after_results_simp
  rfl

/-! ## The two `dot_general`s are rows by columns -/

theorem first_lhs_row (i : S100000x32.Idx) (q : dot_S100000x512_S512x32_S100000x32_1_0_0_1_n_n.contr.Idx) : (dot_S100000x512_S512x32_S100000x32_1_0_0_1_n_n.lhsIdx i q 0).val = (i 0).val := by
  unfold DotDims.lhsIdx
  rw [dif_neg (show ¬(0 : Fin S100000x512.rank) ∈ dot_S100000x512_S512x32_S100000x32_1_0_0_1_n_n.lhsBatch by decide), dif_pos (show (0 : Fin S100000x512.rank) ∈ dot_S100000x512_S512x32_S100000x32_1_0_0_1_n_n.lhsNonContracting by decide)]
  rfl
theorem first_lhs_inner (i : S100000x32.Idx) (q : dot_S100000x512_S512x32_S100000x32_1_0_0_1_n_n.contr.Idx) : (dot_S100000x512_S512x32_S100000x32_1_0_0_1_n_n.lhsIdx i q 1).val = (q ⟨0, by decide⟩).val :=
  dot_S100000x512_S512x32_S100000x32_1_0_0_1_n_n.lhsIdx_val_of_single rfl i q
theorem first_rhs_inner (i : S100000x32.Idx) (q : dot_S100000x512_S512x32_S100000x32_1_0_0_1_n_n.contr.Idx) : (dot_S100000x512_S512x32_S100000x32_1_0_0_1_n_n.rhsIdx i q 0).val = (q ⟨0, by decide⟩).val :=
  dot_S100000x512_S512x32_S100000x32_1_0_0_1_n_n.rhsIdx_val_of_single rfl i q
theorem first_rhs_col (i : S100000x32.Idx) (q : dot_S100000x512_S512x32_S100000x32_1_0_0_1_n_n.contr.Idx) : (dot_S100000x512_S512x32_S100000x32_1_0_0_1_n_n.rhsIdx i q 1).val = (i 1).val := by
  unfold DotDims.rhsIdx
  rw [dif_neg (show ¬(1 : Fin S512x32.rank) ∈ dot_S100000x512_S512x32_S100000x32_1_0_0_1_n_n.rhsBatch by decide), dif_pos (show (1 : Fin S512x32.rank) ∈ dot_S100000x512_S512x32_S100000x32_1_0_0_1_n_n.rhsNonContracting by decide)]
  rfl

theorem second_lhs_row (i : S100000x16.Idx) (q : dot_S100000x32_S32x16_S100000x16_1_0_0_1_n_n.contr.Idx) : (dot_S100000x32_S32x16_S100000x16_1_0_0_1_n_n.lhsIdx i q 0).val = (i 0).val := by
  unfold DotDims.lhsIdx
  rw [dif_neg (show ¬(0 : Fin S100000x32.rank) ∈ dot_S100000x32_S32x16_S100000x16_1_0_0_1_n_n.lhsBatch by decide), dif_pos (show (0 : Fin S100000x32.rank) ∈ dot_S100000x32_S32x16_S100000x16_1_0_0_1_n_n.lhsNonContracting by decide)]
  rfl
theorem second_lhs_inner (i : S100000x16.Idx) (q : dot_S100000x32_S32x16_S100000x16_1_0_0_1_n_n.contr.Idx) : (dot_S100000x32_S32x16_S100000x16_1_0_0_1_n_n.lhsIdx i q 1).val = (q ⟨0, by decide⟩).val :=
  dot_S100000x32_S32x16_S100000x16_1_0_0_1_n_n.lhsIdx_val_of_single rfl i q
theorem second_rhs_inner (i : S100000x16.Idx) (q : dot_S100000x32_S32x16_S100000x16_1_0_0_1_n_n.contr.Idx) : (dot_S100000x32_S32x16_S100000x16_1_0_0_1_n_n.rhsIdx i q 0).val = (q ⟨0, by decide⟩).val :=
  dot_S100000x32_S32x16_S100000x16_1_0_0_1_n_n.rhsIdx_val_of_single rfl i q
theorem second_rhs_col (i : S100000x16.Idx) (q : dot_S100000x32_S32x16_S100000x16_1_0_0_1_n_n.contr.Idx) : (dot_S100000x32_S32x16_S100000x16_1_0_0_1_n_n.rhsIdx i q 1).val = (i 1).val := by
  unfold DotDims.rhsIdx
  rw [dif_neg (show ¬(1 : Fin S32x16.rank) ∈ dot_S100000x32_S32x16_S100000x16_1_0_0_1_n_n.rhsBatch by decide), dif_pos (show (1 : Fin S32x16.rank) ∈ dot_S100000x32_S32x16_S100000x16_1_0_0_1_n_n.rhsNonContracting by decide)]
  rfl

/-- The first `dot_general`, at the ideal instance, is rows by columns of its operands. -/
theorem firstDot_rowsByCols (x : FVec Ideal S100000x512 .f32) (w : FVec Ideal S512x32 .f32) :
    Host.dotGeneral dot_S100000x512_S512x32_S100000x32_1_0_0_1_n_n none x w = rowsByCols x w :=
  dotGeneral_eq_rowsByCols dot_S100000x512_S512x32_S100000x32_1_0_0_1_n_n none .single rfl rfl first_lhs_row first_lhs_inner first_rhs_inner first_rhs_col x w

/-- The second likewise. -/
theorem secondDot_rowsByCols (x : FVec Ideal S100000x32 .f32) (w : FVec Ideal S32x16 .f32) :
    Host.dotGeneral dot_S100000x32_S32x16_S100000x16_1_0_0_1_n_n none x w = rowsByCols x w :=
  dotGeneral_eq_rowsByCols dot_S100000x32_S32x16_S100000x16_1_0_0_1_n_n none .single rfl rfl second_lhs_row second_lhs_inner second_rhs_inner second_rhs_col x w

end Cert.ReferenceIdeal.Stretches

end
-- ==== Proof.RefValue.lean ====
/-
  The idealized reference's result, as the same network of its arguments, and its run.

  The reference is host operations only, so its run is the library's: every buffer ends at the fold of the operations'
  results over the launch contents. That fold is followed through the seven pieces the line was cut into, at the buffers
  that matter, exactly as the kernel's fold was followed through its nine segments; where the kernel had a region leaving
  rows by columns, the reference has a `dot_general`, which at the ideal instance is rows by columns too.
-/
import proofs.«104740_j17300128268933_1_alg».proof.Proof.RefStretches
import proofs.«104740_j17300128268933_1_alg».proof.Proof.Network

set_option maxRecDepth 16384

noncomputable section

namespace Cert.ReferenceIdeal.Whole

open Idealize.ShloMosaic Idealize.ShloMosaic.TcCoe Idealize.ShloMosaic.StableHlo Idealize.SL.Sem
open Cert.ReferenceIdeal Cert.ReferenceIdeal.Gen Cert.ReferenceIdeal.ValueP Cert.ReferenceIdeal.Stretches
open Cert.KernelIdeal.Stages Cert.Spec

variable (m : (ℓ : Loc nD τ sig) → Buf (Elt Ideal) ℓ) (c : Dev nD)

/-! ## The buffers' contents after each piece -/

abbrev R1 : Valuation τ sig (Elt Ideal) := StableHlo.after normOps (launchContents m c)
abbrev R2 : Valuation τ sig (Elt Ideal) := StableHlo.after firstDot (R1 m c)
abbrev R3 : Valuation τ sig (Elt Ideal) := StableHlo.after hiddenOps (R2 m c)
abbrev R4 : Valuation τ sig (Elt Ideal) := StableHlo.after secondDot (R3 m c)
abbrev R5 : Valuation τ sig (Elt Ideal) := StableHlo.after messageOps (R4 m c)
abbrev R6 : Valuation τ sig (Elt Ideal) := StableHlo.after maxOps (R5 m c)
abbrev R7 : Valuation τ sig (Elt Ideal) := StableHlo.after restOps (R6 m c)

set_option maxHeartbeats 2000000 in
/-- The result buffer after the whole line holds the network of the launch arguments. -/
theorem result_eq : StableHlo.after ops (launchContents m c) (Proc.devRef .tc main_v67) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- after the normalisation
  have r1 : R1 m c (Proc.devRef .tc main_v3) = (rowOf (m ((c.tc : Thread nD τ).loc main_arg1))) := norm_row (launchContents m c)
  have c1 : R1 m c (Proc.devRef .tc main_v6) = (colOf (m ((c.tc : Thread nD τ).loc main_arg1))) := norm_col (launchContents m c)
  have w1 : R1 m c (Proc.devRef .tc main_v31) = (edgeWeight (F := Ideal) (rowOf (m ((c.tc : Thread nD τ).loc main_arg1))) (colOf (m ((c.tc : Thread nD τ).loc main_arg1)))) := norm_weight (launchContents m c)
  have x1 : R1 m c (Proc.devRef .tc main_arg0) = (m ((c.tc : Thread nD τ).loc main_arg0)) := norm_keeps_arg0 (launchContents m c)
  have u1 : R1 m c (Proc.devRef .tc main_arg2) = (m ((c.tc : Thread nD τ).loc main_arg2)) := norm_keeps_arg2 (launchContents m c)
  have b1 : R1 m c (Proc.devRef .tc main_arg3) = (m ((c.tc : Thread nD τ).loc main_arg3)) := norm_keeps_arg3 (launchContents m c)
  have v1 : R1 m c (Proc.devRef .tc main_arg4) = (m ((c.tc : Thread nD τ).loc main_arg4)) := norm_keeps_arg4 (launchContents m c)
  have d1 : R1 m c (Proc.devRef .tc main_arg5) = (m ((c.tc : Thread nD τ).loc main_arg5)) := norm_keeps_arg5 (launchContents m c)
  -- after the first product
  have p2 : R2 m c (Proc.devRef .tc main_v32) = (rowsByCols (m ((c.tc : Thread nD τ).loc main_arg0)) (m ((c.tc : Thread nD τ).loc main_arg2))) := by
    refine (firstDot_eq (R1 m c)).trans ?_
    rw [x1, u1]
    exact firstDot_rowsByCols _ _
  have r2 : R2 m c (Proc.devRef .tc main_v3) = (rowOf (m ((c.tc : Thread nD τ).loc main_arg1))) := (firstDot_keeps_v3 (R1 m c)).trans r1
  have c2 : R2 m c (Proc.devRef .tc main_v6) = (colOf (m ((c.tc : Thread nD τ).loc main_arg1))) := (firstDot_keeps_v6 (R1 m c)).trans c1
  have w2 : R2 m c (Proc.devRef .tc main_v31) = (edgeWeight (F := Ideal) (rowOf (m ((c.tc : Thread nD τ).loc main_arg1))) (colOf (m ((c.tc : Thread nD τ).loc main_arg1)))) := (firstDot_keeps_v31 (R1 m c)).trans w1
  have b2 : R2 m c (Proc.devRef .tc main_arg3) = (m ((c.tc : Thread nD τ).loc main_arg3)) := (firstDot_keeps_arg3 (R1 m c)).trans b1
  have v2 : R2 m c (Proc.devRef .tc main_arg4) = (m ((c.tc : Thread nD τ).loc main_arg4)) := (firstDot_keeps_arg4 (R1 m c)).trans v1
  have d2 : R2 m c (Proc.devRef .tc main_arg5) = (m ((c.tc : Thread nD τ).loc main_arg5)) := (firstDot_keeps_arg5 (R1 m c)).trans d1
  -- after the first round of messages
  have h3 : R3 m c (Proc.devRef .tc main_v49) = (hidden (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (m ((c.tc : Thread nD τ).loc main_arg0)) (m ((c.tc : Thread nD τ).loc main_arg2))) (m ((c.tc : Thread nD τ).loc main_arg3))) := by
    refine (hidden_eq (R2 m c)).trans ?_
    rw [r2, c2, w2, p2, b2]
  have r3 : R3 m c (Proc.devRef .tc main_v3) = (rowOf (m ((c.tc : Thread nD τ).loc main_arg1))) := (hidden_keeps_v3 (R2 m c)).trans r2
  have c3 : R3 m c (Proc.devRef .tc main_v6) = (colOf (m ((c.tc : Thread nD τ).loc main_arg1))) := (hidden_keeps_v6 (R2 m c)).trans c2
  have w3 : R3 m c (Proc.devRef .tc main_v31) = (edgeWeight (F := Ideal) (rowOf (m ((c.tc : Thread nD τ).loc main_arg1))) (colOf (m ((c.tc : Thread nD τ).loc main_arg1)))) := (hidden_keeps_v31 (R2 m c)).trans w2
  have v3 : R3 m c (Proc.devRef .tc main_arg4) = (m ((c.tc : Thread nD τ).loc main_arg4)) := (hidden_keeps_arg4 (R2 m c)).trans v2
  have d3 : R3 m c (Proc.devRef .tc main_arg5) = (m ((c.tc : Thread nD τ).loc main_arg5)) := (hidden_keeps_arg5 (R2 m c)).trans d2
  -- after the second product
  have p4 : R4 m c (Proc.devRef .tc main_v50) = (rowsByCols (hidden (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (m ((c.tc : Thread nD τ).loc main_arg0)) (m ((c.tc : Thread nD τ).loc main_arg2))) (m ((c.tc : Thread nD τ).loc main_arg3))) (m ((c.tc : Thread nD τ).loc main_arg4))) := by
    refine (secondDot_eq (R3 m c)).trans ?_
    rw [h3, v3]
    exact secondDot_rowsByCols _ _
  have r4 : R4 m c (Proc.devRef .tc main_v3) = (rowOf (m ((c.tc : Thread nD τ).loc main_arg1))) := (secondDot_keeps_v3 (R3 m c)).trans r3
  have c4 : R4 m c (Proc.devRef .tc main_v6) = (colOf (m ((c.tc : Thread nD τ).loc main_arg1))) := (secondDot_keeps_v6 (R3 m c)).trans c3
  have w4 : R4 m c (Proc.devRef .tc main_v31) = (edgeWeight (F := Ideal) (rowOf (m ((c.tc : Thread nD τ).loc main_arg1))) (colOf (m ((c.tc : Thread nD τ).loc main_arg1)))) := (secondDot_keeps_v31 (R3 m c)).trans w3
  have d4 : R4 m c (Proc.devRef .tc main_arg5) = (m ((c.tc : Thread nD τ).loc main_arg5)) := (secondDot_keeps_arg5 (R3 m c)).trans d3
  -- after the second round of messages, the row maxima, the rest of the log-softmax
  have z5 : R5 m c (Proc.devRef .tc main_v66) = (messages16 (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (hidden (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) := by
    refine (messages_eq (R4 m c)).trans ?_
    rw [r4, c4, w4, p4, d4]
  have z6 : R6 m c (Proc.devRef .tc main_v66) = (messages16 (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (hidden (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) := (rowMax_keeps_v66 (R5 m c)).trans z5
  have m6 : R6 m c (Proc.devRef .tc main_call2_v0) = rowMax (F := Ideal) (messages16 (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (hidden (F := Ideal) (rowOf (m ((c.tc : Thread nD τ).loc main_arg1))) (colOf (m ((c.tc : Thread nD τ).loc main_arg1))) (edgeWeight (F := Ideal) (rowOf (m ((c.tc : Thread nD τ).loc main_arg1))) (colOf (m ((c.tc : Thread nD τ).loc main_arg1)))) (rowsByCols (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) := by
    refine (rowMax_eq (R5 m c)).trans ?_
    rw [z5]
  show StableHlo.after ops (launchContents m c) (Proc.devRef .tc main_v67) = _
  rw [after_cut]
  refine (softmaxRest_eq (R6 m c)).trans ?_
  rw [z6, m6]
  rfl

/-! ## The arguments end as launched -/

theorem keeps_arg0 (V : Valuation τ sig (Elt Ideal)) : StableHlo.after ops V (Proc.devRef .tc main_arg0) = V (Proc.devRef .tc main_arg0) := by
  simp only [ops]
  after_results_simp <;> rfl
theorem keeps_arg1 (V : Valuation τ sig (Elt Ideal)) : StableHlo.after ops V (Proc.devRef .tc main_arg1) = V (Proc.devRef .tc main_arg1) := by
  simp only [ops]
  after_results_simp <;> rfl
theorem keeps_arg2 (V : Valuation τ sig (Elt Ideal)) : StableHlo.after ops V (Proc.devRef .tc main_arg2) = V (Proc.devRef .tc main_arg2) := by
  simp only [ops]
  after_results_simp <;> rfl
theorem keeps_arg3 (V : Valuation τ sig (Elt Ideal)) : StableHlo.after ops V (Proc.devRef .tc main_arg3) = V (Proc.devRef .tc main_arg3) := by
  simp only [ops]
  after_results_simp <;> rfl
theorem keeps_arg4 (V : Valuation τ sig (Elt Ideal)) : StableHlo.after ops V (Proc.devRef .tc main_arg4) = V (Proc.devRef .tc main_arg4) := by
  simp only [ops]
  after_results_simp <;> rfl
theorem keeps_arg5 (V : Valuation τ sig (Elt Ideal)) : StableHlo.after ops V (Proc.devRef .tc main_arg5) = V (Proc.devRef .tc main_arg5) := by
  simp only [ops]
  after_results_simp <;> rfl

/-! ## The run -/

/-- From any memory with zero counters: every weakly fair execution of the reference's @main terminates, the result at the
    network of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v67) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_eq m c),
      (h c main_arg0).trans (keeps_arg0 (launchContents m c)),
      (h c main_arg1).trans (keeps_arg1 (launchContents m c)),
      (h c main_arg2).trans (keeps_arg2 (launchContents m c)),
      (h c main_arg3).trans (keeps_arg3 (launchContents m c)),
      (h c main_arg4).trans (keeps_arg4 (launchContents m c)),
      (h c main_arg5).trans (keeps_arg5 (launchContents m c))⟩)
    (run_seq scopedRefs_eq scopedSems_eq defs main (fun _ => ops) main_eq (fun _ => ops_sub) m ρ)

end Cert.ReferenceIdeal.Whole

end
-- ==== Proof.lean ====
/-
  The certificate of a two-layer graph convolution: a Pallas kernel for its two matrix products against plain jnp.

  Kernel and reference are the same array program — degree-normalised message passing over an edge list with self loops,
  twice, around `x · W1` and `relu(·) · W2`, ending in log-softmax — except for how the two products are computed: the
  reference by one `dot_general` each, the kernel by a pipelined region each, 25 blocks of 4000 rows, operands cast to bf16
  and multiplied on the matrix unit into a zero f32 accumulator. At the ideal instance a change of float format is the
  identity and either product is the plain sum over the inner index in the extended reals, a commutative monoid: so the
  two results are ONE function of the arguments (`Stages.network`), with no appeal to the finiteness of the inputs. The
  ideal pass rewrote nothing, so the idealization claim is empty. The three frames are the generated one for each kernel
  program and, for the reference, its run with the result dropped.
-/
import proofs.«104740_j17300128268933_1_alg».proof.Defs
import proofs.«104740_j17300128268933_1_alg».proof.Proof.Gen.Kernel
import proofs.«104740_j17300128268933_1_alg».proof.Proof.Gen.Kernel.Frame
import proofs.«104740_j17300128268933_1_alg».proof.Proof.Gen.KernelIdeal
import proofs.«104740_j17300128268933_1_alg».proof.Proof.Gen.KernelIdeal.Frame
import proofs.«104740_j17300128268933_1_alg».proof.Proof.Gen.ReferenceIdeal
import proofs.«104740_j17300128268933_1_alg».proof.Proof.Gen.Pre_finite_inputs
import proofs.«104740_j17300128268933_1_alg».proof.Proof.KernelRun
import proofs.«104740_j17300128268933_1_alg».proof.Proof.KernelValue
import proofs.«104740_j17300128268933_1_alg».proof.Proof.RefValue

noncomputable section

namespace Cert.Proof

open Idealize.ShloMosaic Idealize.ShloMosaic.TcCoe Idealize.SL.Sem
open Cert.KernelIdeal.Stages

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Whole.run m ρ)

/-- The ideal pass rewrote no operation. -/
theorem preserves : Cert.preserves_Kernel_KernelIdeal := trivial

/-- Both idealized programs end with the network of the arguments in the result buffer — the kernel by its nine segments,
    the reference by its one line — and the arguments agree. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩) (Cert.KernelIdeal.Whole.run_value m ρ)
  · refine (θ_run Cert.ReferenceIdeal.defs _ _).mono (fun r h c => ⟨(h c).1.trans ?_, (h c).2⟩)
      (Cert.ReferenceIdeal.Whole.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
